-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x256 .f32) (main_arg3 : FVec F S256 .f32) (main_arg4 : FVec F S256x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩

abbrev nBuf : Space → Nat
  | .hbm => 77
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S_, .f32⟩
  | .hbm, ⟨12, _⟩ => ⟨S1250000, .f32⟩
  | .hbm, ⟨13, _⟩ => ⟨S_, .f32⟩
  | .hbm, ⟨14, _⟩ => ⟨S100000, .f32⟩
  | .hbm, ⟨15, _⟩ => ⟨S1250000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000, .f32⟩
  | .hbm, ⟨43, _⟩ => ⟨S1250000, .f32⟩
  | .hbm, ⟨44, _⟩ => ⟨S1250000x1, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S1250000x64, .f32⟩
  | .hbm, ⟨55, _⟩ => ⟨S1250000x64, .f32⟩
  | .hbm, ⟨56, _⟩ => ⟨S_, .f32⟩
  | .hbm, ⟨57, _⟩ => ⟨S100000x64, .f32⟩
  | .hbm, ⟨58, _⟩ => ⟨S1250000x1, .i32⟩
  | .hbm, ⟨59, _⟩ => ⟨S100000x64, .f32⟩
  | .hbm, ⟨60, _⟩ => ⟨S1250000x1, .f32⟩
  | .hbm, ⟨61, _⟩ => ⟨S_, .i32⟩
  | .hbm, ⟨62, _⟩ => ⟨S1250000, .i32⟩
  | .hbm, ⟨63, _⟩ => ⟨S1250000, .i1⟩
  | .hbm, ⟨64, _⟩ => ⟨S_, .i32⟩
  | .hbm, ⟨65, _⟩ => ⟨S1250000, .i32⟩
  | .hbm, ⟨66, _⟩ => ⟨S1250000, .i32⟩
  | .hbm, ⟨67, _⟩ => ⟨S1250000, .i32⟩
  | .hbm, ⟨68, _⟩ => ⟨S1250000x1, .i32⟩
  | .hbm, ⟨69, _⟩ => ⟨S1250000x64, .f32⟩
  | .hbm, ⟨70, _⟩ => ⟨S1250000x64, .f32⟩
  | .hbm, ⟨71, _⟩ => ⟨S1250000x64, .f32⟩
  | .hbm, ⟨72, _⟩ => ⟨S_, .f32⟩
  | .hbm, ⟨73, _⟩ => ⟨S100000x64, .f32⟩
  | .hbm, ⟨74, _⟩ => ⟨S1250000x1, .i32⟩
  | .hbm, ⟨75, _⟩ => ⟨S100000x64, .f32⟩
  | .hbm, ⟨76, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S256, .f32⟩
  | .local _ .vmem, ⟨4, _⟩ => ⟨S256x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S5000x64_S5000x64 : S5000x64.ShapeCasts S5000x64
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S100000x256 : Shape := ⟨2, ![100000, 256]⟩
abbrev S1x256 : Shape := ⟨2, ![1, 256]⟩
abbrev S_ : Shape := ⟨0, ![]⟩
abbrev S1x64 : Shape := ⟨2, ![1, 64]⟩
abbrev S1x1250000 : Shape := ⟨2, ![1, 1250000]⟩
abbrev S1250000 : Shape := ⟨1, ![1250000]⟩
abbrev S100000 : Shape := ⟨1, ![100000]⟩
abbrev S1250000x1 : Shape := ⟨2, ![1250000, 1]⟩
abbrev S1250000x64 : Shape := ⟨2, ![1250000, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S1x1250000, .i32⟩
  | .hbm, ⟨18, _⟩ => ⟨S1250000, .i32⟩
  | .hbm, ⟨19, _⟩ => ⟨S1x1250000, .i32⟩
  | .hbm, ⟨20, _⟩ => ⟨S1250000, .i32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000, .f32⟩
  | .hbm, ⟨53, _⟩ => ⟨S1250000, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S1250000x1, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000x64, .f32⟩
  | .hbm, ⟨67, _⟩ => ⟨S1250000x64, .f32⟩
  | .hbm, ⟨68, _⟩ => ⟨S1250000x64, .f32⟩
  | .hbm, ⟨69, _⟩ => ⟨S_, .f32⟩
  | .hbm, ⟨70, _⟩ => ⟨S100000x64, .f32⟩
  | .hbm, ⟨71, _⟩ => ⟨S1250000x1, .i32⟩
  | .hbm, ⟨72, _⟩ => ⟨S100000x64, .f32⟩
  | .hbm, ⟨73, _⟩ => ⟨S1250000x1, .f32⟩
  | .hbm, ⟨74, _⟩ => ⟨S_, .i32⟩
  | .hbm, ⟨75, _⟩ => ⟨S1250000, .i32⟩
  | .hbm, ⟨76, _⟩ => ⟨S1250000, .i1⟩
  | .hbm, ⟨77, _⟩ => ⟨S_, .i32⟩
  | .hbm, ⟨78, _⟩ => ⟨S1250000, .i32⟩
  | .hbm, ⟨79, _⟩ => ⟨S1250000, .i32⟩
  | .hbm, ⟨80, _⟩ => ⟨S1250000, .i32⟩
  | .hbm, ⟨81, _⟩ => ⟨S1250000x1, .i32⟩
  | .hbm, ⟨82, _⟩ => ⟨S1250000x64, .f32⟩
  | .hbm, ⟨83, _⟩ => ⟨S1250000x64, .f32⟩
  | .hbm, ⟨84, _⟩ => ⟨S1250000x64, .f32⟩
  | .hbm, ⟨85, _⟩ => ⟨S_, .f32⟩
  | .hbm, ⟨86, _⟩ => ⟨S100000x64, .f32⟩
  | .hbm, ⟨87, _⟩ => ⟨S1250000x1, .i32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S1250000x1_S1250000x64_0_1 : S1250000x1.BroadcastsInDim S1250000x64 (![0, 1] : Fin 2 → Fin S1250000x64.rank)
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«127530_j44083544326599_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.MlpRows.lean ====
/-
  A two-layer perceptron applied to every row of a matrix, and the mixing of two arrays, over the extended reals.

  Row `x` of the input goes through a dense layer, a rectifier at zero and a second dense layer:
  `mlpRow x = dense (relu 0 (dense x W₁ b₁)) W₂ b₂`, so its entry `q` is
  `(∑ k, max ((∑ j, x j · W₁[j, k]) + b₁ k) 0 · W₂[k, q]) + b₂ q`. `mlpRows` applies it to every row of an array with
  ANY number of rows, so one function describes a block of rows and the whole array. `mix h z` is
  `c₀ · h + c₁ · z` entry by entry, with `c₀`, `c₁` the extended reals two fixed 32-bit words denote.

  Read here as these functions: the device's spelling of the perceptron on a block (each product into a zero
  accumulator, its operands first re-formatted to a shorter float — the identity on an extended real —, each bias
  vector given a unit leading axis and broadcast down the rows, the rectifier a maximum with a splat scalar), the
  host's spelling on the whole array (`dot_general`, each bias vector given a unit leading axis and broadcast, the
  rectifier a maximum with a broadcast rank-0 constant), and both spellings of the mixing. Then the step from a block
  holding rows `R·n …` of an array to the array: the perceptron of the block at `(p, q)` is the perceptron of the
  array at `(R·n + p, q)`, because a row's image depends on that row only.

  No law of arithmetic is used: the two programs compute the same expression entry by entry (a product into a zero
  accumulator and a `dot_general` are the same finite sum over the contracted position).
-/
import proofs.«127530_j44083544326599_1_alg».proof.Proof.LibRowLayers
import proofs.«127530_j44083544326599_1_alg».proof.Proof.LibRowExtras

noncomputable section

namespace Cert.Mlp

open Idealize.ShloMosaic Idealize.ShloMosaic.ValueIdx Cert.RowLayers

/-! ## The row function and its array form -/

/-- One row through dense, rectifier at zero, dense. -/
def mlpRow {K H J : ℕ} (x : Fin K → EReal) (w1 : (⟨2, ![K, H]⟩ : Shape).Idx → EReal) (b1 : Fin H → EReal)
    (w2 : (⟨2, ![H, J]⟩ : Shape).Idx → EReal) (b2 : Fin J → EReal) : Fin J → EReal :=
  dense (relu (Ideal.ofBits .f32 0x00000000#32) (dense x w1 b1)) w2 b2

/-- The perceptron on every row of an `[a, K]` array: entry `(r, q)` is `mlpRow` of row `r` at `q`. -/
def mlpRows {a K H J : ℕ} (x : (⟨2, ![a, K]⟩ : Shape).Idx → EReal) (w1 : (⟨2, ![K, H]⟩ : Shape).Idx → EReal)
    (b1 : (⟨1, ![H]⟩ : Shape).Idx → EReal) (w2 : (⟨2, ![H, J]⟩ : Shape).Idx → EReal)
    (b2 : (⟨1, ![J]⟩ : Shape).Idx → EReal) : (⟨2, ![a, J]⟩ : Shape).Idx → EReal :=
  fun i => mlpRow (rowOf x (i 0)) w1 (vec b1) w2 (vec b2) (i 1)

theorem mlpRows_ix2 {a K H J : ℕ} (x : (⟨2, ![a, K]⟩ : Shape).Idx → EReal) (w1 : (⟨2, ![K, H]⟩ : Shape).Idx → EReal)
    (b1 : (⟨1, ![H]⟩ : Shape).Idx → EReal) (w2 : (⟨2, ![H, J]⟩ : Shape).Idx → EReal)
    (b2 : (⟨1, ![J]⟩ : Shape).Idx → EReal) (r : Fin a) (q : Fin J) :
    mlpRows x w1 b1 w2 b2 (ix2 r q) = mlpRow (rowOf x r) w1 (vec b1) w2 (vec b2) q := rfl

/-- The mixing of two arrays entry by entry: `c₀ · h + c₁ · z`. -/
def mix {s : Shape} (h z : s.Idx → EReal) : s.Idx → EReal :=
  fun i => Ideal.ofBits .f32 0x3DCCCCCD#32 * h i + Ideal.ofBits .f32 0x3DA5E354#32 * z i

/-! ## The device's spelling -/

/-- The device's perceptron on a block of rows. -/
theorem device_mlp {a K H J : ℕ} {d1 : DotDims ⟨2, ![a, K]⟩ ⟨2, ![K, H]⟩ ⟨2, ![a, H]⟩}
    {d2 : DotDims ⟨2, ![a, H]⟩ ⟨2, ![H, J]⟩ ⟨2, ![a, J]⟩} (H1 : RowsTimesCols d1) (H2 : RowsTimesCols d2)
    (x : FVec Ideal ⟨2, ![a, K]⟩ .f32) (w1 : FVec Ideal ⟨2, ![K, H]⟩ .f32) (b1 : FVec Ideal ⟨1, ![H]⟩ .f32)
    (w2 : FVec Ideal ⟨2, ![H, J]⟩ .f32) (b2 : FVec Ideal ⟨1, ![J]⟩ .f32) (hx : FTy.bf16.bits < FTy.f32.bits)
    (hc1 : (⟨1, ![H]⟩ : Shape).ShapeCasts ⟨2, ![1, H]⟩) (hB1 : (⟨2, ![1, H]⟩ : Shape).Broadcasts ⟨2, ![a, H]⟩)
    (hc2 : (⟨1, ![J]⟩ : Shape).ShapeCasts ⟨2, ![1, J]⟩) (hB2 : (⟨2, ![1, J]⟩ : Shape).Broadcasts ⟨2, ![a, J]⟩) :
    addf (matmul d2 none
          (truncf .bf16
            (maximumf
              (addf (matmul d1 none (truncf .bf16 x hx) (truncf .bf16 w1 hx) (constant (F := Ideal) ⟨2, ![a, H]⟩ .f32 0x00000000#32))
                (broadcastTo ⟨2, ![a, H]⟩ (shapeCast ⟨2, ![1, H]⟩ b1 hc1) hB1))
              (broadcast ⟨2, ![a, H]⟩ (Scalar.ofBits (F := Ideal) .f32 0x00000000#32))) hx)
          (truncf .bf16 w2 hx) (constant (F := Ideal) ⟨2, ![a, J]⟩ .f32 0x00000000#32))
        (broadcastTo ⟨2, ![a, J]⟩ (shapeCast ⟨2, ![1, J]⟩ b2 hc2) hB2)
      = mlpRows x w1 b1 w2 b2 := by
  funext i
  obtain ⟨r, q, rfl⟩ : ∃ (r : Fin a) (q : Fin J), i = ix2 r q := ⟨i 0, i 1, eq_ix2 i⟩
  refine (congrFun (rowOf_dense_device H2 none _ _ _ hB2 r) q).trans ?_
  rw [rowOf_shapeCast_lead, rowOf_truncf, rowOf_maximumf_splat, rowOf_dense_device H1 none _ _ _ hB1 r, rowOf_shapeCast_lead,
    rowOf_truncf, mlpRows_ix2]
  rfl

/-- The device's mixing on a block: each operand through an identity re-layout, times a splat scalar, summed. -/
theorem device_mix {s : Shape} (h z : FVec Ideal s .f32) (hs : s.ShapeCasts s) :
    addf (mulf (broadcast s (Scalar.ofBits (F := Ideal) .f32 0x3DCCCCCD#32)) (shapeCast s h hs))
        (mulf (broadcast s (Scalar.ofBits (F := Ideal) .f32 0x3DA5E354#32)) (shapeCast s z hs))
      = mix h z := by
  rw [shapeCast_self, shapeCast_self]
  rfl

/-! ## The host's spelling -/

/-- The host's perceptron on the whole array. -/
theorem host_mlp {a K H J : ℕ} {d1 : DotDims ⟨2, ![a, K]⟩ ⟨2, ![K, H]⟩ ⟨2, ![a, H]⟩}
    {d2 : DotDims ⟨2, ![a, H]⟩ ⟨2, ![H, J]⟩ ⟨2, ![a, J]⟩} (H1 : RowsTimesCols d1) (H2 : RowsTimesCols d2)
    (x : FVec Ideal ⟨2, ![a, K]⟩ .f32) (w1 : FVec Ideal ⟨2, ![K, H]⟩ .f32) (b1 : FVec Ideal ⟨1, ![H]⟩ .f32)
    (w2 : FVec Ideal ⟨2, ![H, J]⟩ .f32) (b2 : FVec Ideal ⟨1, ![J]⟩ .f32)
    (g1 : (⟨1, ![H]⟩ : Shape).BroadcastsInDim ⟨2, ![1, H]⟩ ![1]) (g1' : (⟨2, ![1, H]⟩ : Shape).BroadcastsInDim ⟨2, ![a, H]⟩ ![0, 1])
    (g2 : (⟨1, ![J]⟩ : Shape).BroadcastsInDim ⟨2, ![1, J]⟩ ![1]) (g2' : (⟨2, ![1, J]⟩ : Shape).BroadcastsInDim ⟨2, ![a, J]⟩ ![0, 1])
    {s : Shape} (dims0 : Fin s.rank → Fin 2) (h0 : s.BroadcastsInDim ⟨2, ![a, H]⟩ dims0) :
    addf (Host.dotGeneral (F := Ideal) d2 none
          (maximumf
            (addf (Host.dotGeneral (F := Ideal) d1 none x w1)
              (broadcastInDim ⟨2, ![a, H]⟩ ![0, 1] g1' (broadcastInDim ⟨2, ![1, H]⟩ ![1] g1 b1)))
            (broadcastInDim ⟨2, ![a, H]⟩ dims0 h0 (constant (F := Ideal) s .f32 0x00000000#32)))
          w2)
        (broadcastInDim ⟨2, ![a, J]⟩ ![0, 1] g2' (broadcastInDim ⟨2, ![1, J]⟩ ![1] g2 b2))
      = mlpRows x w1 b1 w2 b2 := by
  funext i
  obtain ⟨r, q, rfl⟩ : ∃ (r : Fin a) (q : Fin J), i = ix2 r q := ⟨i 0, i 1, eq_ix2 i⟩
  refine (congrFun (rowOf_dense_host H2 none _ _ _ g2 g2' r) q).trans ?_
  rw [rowOf_maximumf_const, rowOf_dense_host H1 none _ _ _ g1 g1' r, mlpRows_ix2]
  rfl

/-- The host's mixing on the whole array: each operand times a broadcast rank-0 constant, summed. -/
theorem host_mix {s t : Shape} (h z : FVec Ideal s .f32) (dims : Fin t.rank → Fin s.rank) (hb : t.BroadcastsInDim s dims) :
    addf (mulf (broadcastInDim s dims hb (constant (F := Ideal) t .f32 0x3DCCCCCD#32)) h)
        (mulf (broadcastInDim s dims hb (constant (F := Ideal) t .f32 0x3DA5E354#32)) z)
      = mix h z := rfl

/-! ## A block of rows against the whole array -/

/-- If a block `x0` holds rows `R·n …` of `X`, the perceptron of the block at `(p, q)` is the perceptron of `X` at
    `(R·n + p, q)`. -/
theorem mlp_block {A a K H J R : ℕ} (X : (⟨2, ![A, K]⟩ : Shape).Idx → EReal) (w1 : (⟨2, ![K, H]⟩ : Shape).Idx → EReal)
    (b1 : (⟨1, ![H]⟩ : Shape).Idx → EReal) (w2 : (⟨2, ![H, J]⟩ : Shape).Idx → EReal) (b2 : (⟨1, ![J]⟩ : Shape).Idx → EReal)
    (x0 : (⟨2, ![a, K]⟩ : Shape).Idx → EReal) (n : ℕ)
    (h0 : ∀ (y : (⟨2, ![a, K]⟩ : Shape).Idx) (k : (⟨2, ![A, K]⟩ : Shape).Idx),
      (k 0).val = R * n + (y 0).val → (k 1).val = (y 1).val → x0 y = X k)
    (y : (⟨2, ![a, J]⟩ : Shape).Idx) (i : (⟨2, ![A, J]⟩ : Shape).Idx)
    (hi0 : (i 0).val = R * n + (y 0).val) (hi1 : (i 1).val = (y 1).val) :
    mlpRows x0 w1 b1 w2 b2 y = mlpRows X w1 b1 w2 b2 i := by
  obtain ⟨p, q, rfl⟩ : ∃ (p : Fin a) (q : Fin J), y = ix2 p q := ⟨y 0, y 1, eq_ix2 y⟩
  obtain ⟨r, q', rfl⟩ : ∃ (r : Fin A) (q' : Fin J), i = ix2 r q' := ⟨i 0, i 1, eq_ix2 i⟩
  obtain rfl : q' = q := Fin.ext hi1
  rw [mlpRows_ix2, mlpRows_ix2]
  have hrow : rowOf x0 p = rowOf X r := funext fun k => h0 (ix2 p k) (ix2 r k) hi0 rfl
  rw [hrow]

/-- The mixing of two blocks at an index is the mixing of the arrays at the index the blocks' entries come from. -/
theorem mix_block {s S : Shape} (Hh Z : S.Idx → EReal) (h0 z0 : s.Idx → EReal) (y : s.Idx) (i : S.Idx)
    (eh : h0 y = Hh i) (ez : z0 y = Z i) : mix h0 z0 y = mix Hh Z i := by
  unfold mix
  rw [eh, ez]

end Cert.Mlp

end
-- ==== Proof.RefValue.lean ====
/-
  The reference program's perceptron as the function the kernel's is read as.

  The reference computes the perceptron of the whole feature matrix with two `dot_general`s (each bias vector given
  a unit leading axis and broadcast down the rows, the rectifier a maximum with a broadcast zero): `hostHidden`,
  which is `Cert.Mlp.mlpRows` of its arguments — both products contract the rows of the left operand against the
  columns of the right one.
-/
import proofs.«127530_j44083544326599_1_alg».proof.Proof.RefRun
import proofs.«127530_j44083544326599_1_alg».proof.Proof.MlpRows

set_option maxRecDepth 16384

noncomputable section

namespace Cert.ReferenceIdeal.RefValue

open Idealize.ShloMosaic Idealize.ShloMosaic.TcCoe Idealize.SL.Sem
open Cert.ReferenceIdeal Cert.ReferenceIdeal.Gen Cert.RowLayers Cert.Mlp

/-! ## The two products contract rows against columns -/

theorem dotA_rtc : RowsTimesCols dot_S100000x64_S64x256_S100000x256_1_0_0_1_n_n where
  rank := rfl
  size := rfl
  lhs0 := fun j q => by
    unfold DotDims.lhsIdx
    rw [dif_neg (show ¬(0 : Fin S100000x64.rank) ∈ dot_S100000x64_S64x256_S100000x256_1_0_0_1_n_n.lhsBatch by decide),
      dif_pos (show (0 : Fin S100000x64.rank) ∈ dot_S100000x64_S64x256_S100000x256_1_0_0_1_n_n.lhsNonContracting by decide)]
    rfl
  lhs1 := fun j q => dot_S100000x64_S64x256_S100000x256_1_0_0_1_n_n.lhsIdx_val_of_single rfl j q
  rhs0 := fun j q => dot_S100000x64_S64x256_S100000x256_1_0_0_1_n_n.rhsIdx_val_of_single rfl j q
  rhs1 := fun j q => by
    unfold DotDims.rhsIdx
    rw [dif_neg (show ¬(1 : Fin S64x256.rank) ∈ dot_S100000x64_S64x256_S100000x256_1_0_0_1_n_n.rhsBatch by decide),
      dif_pos (show (1 : Fin S64x256.rank) ∈ dot_S100000x64_S64x256_S100000x256_1_0_0_1_n_n.rhsNonContracting by decide)]
    rfl

theorem dotB_rtc : RowsTimesCols dot_S100000x256_S256x64_S100000x64_1_0_0_1_n_n where
  rank := rfl
  size := rfl
  lhs0 := fun j q => by
    unfold DotDims.lhsIdx
    rw [dif_neg (show ¬(0 : Fin S100000x256.rank) ∈ dot_S100000x256_S256x64_S100000x64_1_0_0_1_n_n.lhsBatch by decide),
      dif_pos (show (0 : Fin S100000x256.rank) ∈ dot_S100000x256_S256x64_S100000x64_1_0_0_1_n_n.lhsNonContracting by decide)]
    rfl
  lhs1 := fun j q => dot_S100000x256_S256x64_S100000x64_1_0_0_1_n_n.lhsIdx_val_of_single rfl j q
  rhs0 := fun j q => dot_S100000x256_S256x64_S100000x64_1_0_0_1_n_n.rhsIdx_val_of_single rfl j q
  rhs1 := fun j q => by
    unfold DotDims.rhsIdx
    rw [dif_neg (show ¬(1 : Fin S256x64.rank) ∈ dot_S100000x256_S256x64_S100000x64_1_0_0_1_n_n.rhsBatch by decide),
      dif_pos (show (1 : Fin S256x64.rank) ∈ dot_S100000x256_S256x64_S100000x64_1_0_0_1_n_n.rhsNonContracting by decide)]
    rfl

/-! ## The perceptron, in the reference's spelling -/

/-- The reference's perceptron of the whole feature matrix. -/
def hostHidden (x : FVec Ideal S100000x64 .f32) (w1 : FVec Ideal S64x256 .f32) (b1 : FVec Ideal S256 .f32)
    (w2 : FVec Ideal S256x64 .f32) (b2 : FVec Ideal S64 .f32) : FVec Ideal S100000x64 .f32 :=
  addf (Host.dotGeneral (F := Ideal) dot_S100000x256_S256x64_S100000x64_1_0_0_1_n_n none
        (maximumf
          (addf (Host.dotGeneral (F := Ideal) dot_S100000x64_S64x256_S100000x256_1_0_0_1_n_n none x w1)
            (broadcastInDim S100000x256 ![0, 1] bcast_S1x256_S100000x256_0_1 (broadcastInDim S1x256 ![1] bcast_S256_S1x256_1 b1)))
          (broadcastInDim S100000x256 ![] bcast_S_S100000x256 (constant (F := Ideal) S_ .f32 0x00000000#32)))
        w2)
    (broadcastInDim S100000x64 ![0, 1] bcast_S1x64_S100000x64_0_1 (broadcastInDim S1x64 ![1] bcast_S64_S1x64_1 b2))

/-- It is the perceptron applied to every row. -/
theorem hostHidden_eq (x : FVec Ideal S100000x64 .f32) (w1 : FVec Ideal S64x256 .f32) (b1 : FVec Ideal S256 .f32)
    (w2 : FVec Ideal S256x64 .f32) (b2 : FVec Ideal S64 .f32) :
    hostHidden x w1 b1 w2 b2 = mlpRows x w1 b1 w2 b2 := by
  unfold hostHidden
  exact host_mlp (s := S_) dotA_rtc dotB_rtc x w1 b1 w2 b2 bcast_S256_S1x256_1 bcast_S1x256_S100000x256_0_1 bcast_S64_S1x64_1
    bcast_S1x64_S100000x64_0_1 (![] : Fin 0 → Fin S100000x256.rank) bcast_S_S100000x256

end Cert.ReferenceIdeal.RefValue

end
-- ==== Proof.Propagate.lean ====
/-
  The graph propagation both programs apply between the perceptron and the final mixing, as ONE function of the node
  features `h` [100000, 64] and the edge list `e` [2, 1250000] (row 0 the sources, row 1 the targets).

  With `src`, `dst` the two rows of `e`: the out-degree `deg[n]` is the number of edges with source `n` (ones
  scatter-added at the sources into zeros); `dinv[n] = deg[n]^(-1/2)` where `deg[n] > 0` and `0` elsewhere; the edge
  coefficient is `coef[k] = dinv[src k] · dinv[dst k]` (a node number read the way a gather reads it, a negative one
  wrapped by the node count); and one round sends an array `v` to the array whose row `n` is
  `∑ over the edges k with dst k = n of coef[k] · v[src k]` — rows gathered at the sources, scaled by the coefficient
  broadcast along the features, scatter-added at the targets into zeros. `propagate h e` is two rounds.

  The function is never opened: each program applies it, operation for operation in this spelling, and the
  certificate only needs that equal arguments give equal results.
-/
import proofs.«127530_j44083544326599_1_alg».proof.Proof.Gen.KernelIdeal

noncomputable section

namespace Cert.Graph

open Idealize.ShloMosaic Cert.KernelIdeal Cert.KernelIdeal.Facts₀ Cert.KernelIdeal.Facts

variable {F : FTy → Type} [FloatOps F]

/-- Row `r` of the edge list as a vector of node numbers. -/
def edgeRow0 (e : IVec S2x1250000 32) : IVec S1250000 32 :=
  shapeCast S1250000 (extractStridedSlice S1x1250000 ![0, 0] e slices_S2x1250000_S1x1250000_0_0) shapeCasts_S1x1250000_S1250000

def edgeRow1 (e : IVec S2x1250000 32) : IVec S1250000 32 :=
  shapeCast S1250000 (extractStridedSlice S1x1250000 ![1, 0] e slices_S2x1250000_S1x1250000_1_0) shapeCasts_S1x1250000_S1250000

/-- Node numbers as a column of start indices, a negative one first wrapped by the node count. -/
def wrapCol (v : IVec S1250000 32) : IVec S1250000x1 32 :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 100000#32))) v)

/-- The out-degree: ones scatter-added at the sources into zeros. -/
def outDegree (src : IVec S1250000 32) : FVec F S100000 .f32 :=
  Host.scatterAdd scatter_S100000_S1250000x1_S1250000_n_0_0_1
    (broadcastInDim S100000 ![] bcast_S_S100000 (constant S_ .f32 0x00000000#32))
    (broadcastInDim S1250000x1 ![0] bcast_S1250000_S1250000x1_0 src)
    (broadcastInDim S1250000 ![] bcast_S_S1250000 (constant S_ .f32 0x3F800000#32))

/-- `deg^(-1/2)` where the degree is positive, zero elsewhere. -/
def invSqrtDegree (deg : FVec F S100000 .f32) : FVec F S100000 .f32 :=
  select (cmpf .ogt deg (broadcastInDim S100000 ![] bcast_S_S100000 (constant S_ .f32 0x00000000#32)))
    (Host.rsqrt deg)
    (broadcastInDim S100000 ![] bcast_S_S100000 (id (constant S_ .f32 0x00000000#32)))

/-- The edge coefficient `dinv[src] · dinv[dst]`. -/
def edgeCoef (dinv : FVec F S100000 .f32) (src dst : IVec S1250000 32) : FVec F S1250000 .f32 :=
  mulf (Host.gather gather_S100000_S1250000x1_S1250000_n_0_n_n_0_1_1 dinv (wrapCol src))
    (Host.gather gather_S100000_S1250000x1_S1250000_n_0_n_n_0_1_1 dinv (wrapCol dst))

/-- One round: rows gathered at the sources, scaled by the coefficient, scatter-added at the targets. -/
def round (coef : FVec F S1250000 .f32) (src dst : IVec S1250000 32) (v : FVec F S100000x64 .f32) : FVec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 dst)
    (mulf
      (broadcastInDim S1250000x64 ![0, 1] bcast_S1250000x1_S1250000x64_0_1
        (broadcastInDim S1250000x1 ![0] bcast_S1250000_S1250000x1_0 coef))
      (Host.gather gather_S100000x64_S1250000x1_S1250000x64_1_0_n_n_0_1_164 v (wrapCol src)))

/-- Two rounds of propagation of the features `h` along the edges `e`. -/
def propagate (h : FVec F S100000x64 .f32) (e : IVec S2x1250000 32) : FVec F S100000x64 .f32 :=
  round (edgeCoef (invSqrtDegree (outDegree (edgeRow0 e))) (edgeRow0 e) (edgeRow1 e)) (edgeRow0 e) (edgeRow1 e)
    (round (edgeCoef (invSqrtDegree (outDegree (edgeRow0 e))) (edgeRow0 e) (edgeRow1 e)) (edgeRow0 e) (edgeRow1 e) h)

end Cert.Graph

end
-- ==== Proof.RefResult.lean ====
/-
  The reference program's whole result as the two functions the kernel's is read as.

  The run's composed term is `c₀ · H + c₁ · P` entry by entry, `H` the reference's perceptron of the arguments and `P` the
  host operations of the graph propagation applied to `H` and the edge list. Read as whole arrays: the outer sum of
  two scaled arrays is `Cert.Mlp.mix H P`, and `P` is, operation for operation, `Cert.Graph.propagate H e`. Nothing
  is read at an index here: the two sides are the same tree of array operations.
-/
import proofs.«127530_j44083544326599_1_alg».proof.Proof.RefRun
import proofs.«127530_j44083544326599_1_alg».proof.Proof.RefValue
import proofs.«127530_j44083544326599_1_alg».proof.Proof.Propagate

set_option maxRecDepth 16384

noncomputable section

namespace Cert.ReferenceIdeal.RefValue

open Idealize.ShloMosaic Idealize.ShloMosaic.TcCoe Idealize.SL.Sem
open Cert.ReferenceIdeal Cert.ReferenceIdeal.Gen Cert.RowLayers Cert.Mlp Cert.Graph

/-- The run's composed term is the mixing of the perceptron's output with its propagation along the edges. -/
theorem result_eq (m : (ℓ : Loc nD τ sig) → Buf (Elt Ideal) ℓ) (c : Dev nD) :
    RunP.res_main_v67 (F := Ideal) m c
      = mix (hostHidden (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5)))
          (propagate (F := Ideal)
            (hostHidden (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5)))
            (m ((c.tc : Thread nD τ).loc main_arg1))) := by
  unfold RunP.res_main_v67
  refine (host_mix (t := S_) _ _ (![] : Fin 0 → Fin S100000x64.rank) bcast_S_S100000x64).trans ?_
  refine congrArg₂ mix ?_ ?_
  · unfold hostHidden
    rfl
  · unfold propagate Cert.Graph.round edgeCoef invSqrtDegree outDegree wrapCol edgeRow0 edgeRow1 hostHidden
    rfl

end Cert.ReferenceIdeal.RefValue

end
-- ==== Proof.KernelBlocks.lean ====
/-
  What each of the kernel's two tiled regions leaves in its output array, as one whole-array function of the buffer
  contents the region is entered with.

  Both regions walk the 100000 rows of their arrays in 20 tiles of 5000 rows. At tile `t` the first region reads rows
  `5000·t … 5000·t + 4999` of the feature matrix and the whole of the two weight matrices and the two bias vectors, and
  writes the perceptron of those rows (`Cert.Mlp.mlpRows` of the block) to the same rows of its output. Since a row's
  image under the perceptron depends on that row only, the block's result at `(p, q)` is the whole array's result at
  `(5000·t + p, q)`; the 20 tiles cover every row (row `r` lies in tile `r / 5000`), so the output array ends holding
  `mlpRows` of the whole input. The second region reads the same rows of two arrays and writes their mixing
  `c₀ · h + c₁ · z` (`Cert.Mlp.mix`), an entry-by-entry function, to those rows: its output array ends holding the mixing
  of the two whole arrays.
  Everything is stated at an arbitrary valuation `V` of the buffers at the region's entry, so that whatever the
  program computed before the region stays a name here.
-/
import proofs.«127530_j44083544326599_1_alg».proof.Proof.Gen.KernelIdeal.Frame
import proofs.«127530_j44083544326599_1_alg».proof.Proof.MlpRows
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.RowLayers Cert.Mlp
open Idealize.ShloMosaic.Pipeline (Dat)

/-! ## The two products contract rows against columns -/

theorem dotA_rtc : RowsTimesCols dot_S5000x64_S64x256_S5000x256_1_0_0_1_n_n where
  rank := rfl
  size := rfl
  lhs0 := fun j q => by
    unfold DotDims.lhsIdx
    rw [dif_neg (show ¬(0 : Fin S5000x64.rank) ∈ dot_S5000x64_S64x256_S5000x256_1_0_0_1_n_n.lhsBatch by decide),
      dif_pos (show (0 : Fin S5000x64.rank) ∈ dot_S5000x64_S64x256_S5000x256_1_0_0_1_n_n.lhsNonContracting by decide)]
    rfl
  lhs1 := fun j q => dot_S5000x64_S64x256_S5000x256_1_0_0_1_n_n.lhsIdx_val_of_single rfl j q
  rhs0 := fun j q => dot_S5000x64_S64x256_S5000x256_1_0_0_1_n_n.rhsIdx_val_of_single rfl j q
  rhs1 := fun j q => by
    unfold DotDims.rhsIdx
    rw [dif_neg (show ¬(1 : Fin S64x256.rank) ∈ dot_S5000x64_S64x256_S5000x256_1_0_0_1_n_n.rhsBatch by decide),
      dif_pos (show (1 : Fin S64x256.rank) ∈ dot_S5000x64_S64x256_S5000x256_1_0_0_1_n_n.rhsNonContracting by decide)]
    rfl

theorem dotB_rtc : RowsTimesCols dot_S5000x256_S256x64_S5000x64_1_0_0_1_n_n where
  rank := rfl
  size := rfl
  lhs0 := fun j q => by
    unfold DotDims.lhsIdx
    rw [dif_neg (show ¬(0 : Fin S5000x256.rank) ∈ dot_S5000x256_S256x64_S5000x64_1_0_0_1_n_n.lhsBatch by decide),
      dif_pos (show (0 : Fin S5000x256.rank) ∈ dot_S5000x256_S256x64_S5000x64_1_0_0_1_n_n.lhsNonContracting by decide)]
    rfl
  lhs1 := fun j q => dot_S5000x256_S256x64_S5000x64_1_0_0_1_n_n.lhsIdx_val_of_single rfl j q
  rhs0 := fun j q => dot_S5000x256_S256x64_S5000x64_1_0_0_1_n_n.rhsIdx_val_of_single rfl j q
  rhs1 := fun j q => by
    unfold DotDims.rhsIdx
    rw [dif_neg (show ¬(1 : Fin S256x64.rank) ∈ dot_S5000x256_S256x64_S5000x64_1_0_0_1_n_n.rhsBatch by decide),
      dif_pos (show (1 : Fin S256x64.rank) ∈ dot_S5000x256_S256x64_S5000x64_1_0_0_1_n_n.rhsNonContracting by decide)]
    rfl

/-! ## The bodies' stored values -/

theorem hz2 : (![0, 0] : Fin 2 → Nat) = fun _ => 0 := funext fun a => by fin_cases a <;> rfl
theorem hz1 : (![0] : Fin 1 → Nat) = fun _ => 0 := funext fun a => by fin_cases a <;> rfl

/-- The first body's stored value is the perceptron of its loaded blocks. -/
theorem pay_mlp (x0 : FVec Ideal S5000x64 .f32) (x1 : FVec Ideal S64x256 .f32) (x2 : FVec Ideal S256 .f32)
    (x3 : FVec Ideal S256x64 .f32) (x4 : FVec Ideal S64 .f32) :
    k0_pay1 (F := Ideal) x0 x1 x2 x3 x4 = mlpRows x0 x1 x2 x3 x4 := by
  unfold k0_pay1
  exact device_mlp dotA_rtc dotB_rtc x0 x1 x2 x3 x4 bitsLt_bf16_f32 shapeCasts_S256_S1x256 broadcasts_S1x256_S5000x256
    shapeCasts_S64_S1x64 broadcasts_S1x64_S5000x64

/-- So is what the first body leaves in its output buffer: one whole store of that value. -/
theorem out0_mlp (x0 : FVec Ideal S5000x64 .f32) (x1 : FVec Ideal S64x256 .f32) (x2 : FVec Ideal S256 .f32)
    (x3 : FVec Ideal S256x64 .f32) (x4 : FVec Ideal S64 .f32) :
    out0_5 (F := Ideal) x0 x1 x2 x3 x4 = mlpRows x0 x1 x2 x3 x4 := by
  unfold out0_5
  rw [View.canon_unit_zero hz2]
  simp only [View.ld_unit_zero (S := S5000x64) hz2, View.ld_unit_zero (S := S64x256) hz2, View.ld_unit_zero (S := S256) hz1,
    View.ld_unit_zero (S := S256x64) hz2, View.ld_unit_zero (S := S64) hz1]
  exact pay_mlp x0 x1 x2 x3 x4

/-- The second body's stored value is the mixing of its two loaded blocks. -/
theorem pay_mix (x0 x1 : FVec Ideal S5000x64 .f32) : k1_pay1 (F := Ideal) x0 x1 = mix x0 x1 := by
  unfold k1_pay1
  exact device_mix x0 x1 shapeCasts_S5000x64_S5000x64

theorem out1_mix (x0 x1 : FVec Ideal S5000x64 .f32) : out1_2 (F := Ideal) x0 x1 = mix x0 x1 := by
  unfold out1_2
  rw [View.canon_unit_zero hz2]
  simp only [View.ld_unit_zero (S := S5000x64) hz2]
  exact pay_mix x0 x1

/-! ## The printed index maps, decided over the grids -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-! ## The first region's blocks -/

/-- The feature window's block at tile `t` is rows `5000·t …` of the feature matrix. -/
theorem blk0_0 (c : Dev nD) (t : Fin cfg0.N) (y : S5000x64.Idx) (k : S100000x64.Idx)
    (hk0 : (k 0).val = 5000 * t.val + (y 0).val) (hk1 : (k 1).val = (y 1).val) :
    (iblk0 V c 0 t : FVec Ideal S5000x64 .f32) y = (V c main_arg0 : S100000x64.Idx → EReal) k := by
  obtain ⟨e0, e1, -⟩ := idx0 t
  unfold iblk0
  rw [View.read_apply]
  show (V c main_arg0 : S100000x64.Idx → EReal) _ = (V c main_arg0 : S100000x64.Idx → EReal) k
  refine congrArg (V c main_arg0 : S100000x64.Idx → EReal) ?_
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- The first weight matrix's block at every tile is the whole matrix. -/
theorem blk0_1 (c : Dev nD) (t : Fin cfg0.N) : (iblk0 V c 1 t : FVec Ideal S64x256 .f32) = (V c main_arg2 : S64x256.Idx → EReal) := by
  obtain ⟨-, -, e0, e1, -⟩ := idx0 t
  funext y
  unfold iblk0
  rw [View.read_apply]
  show (V c main_arg2 : S64x256.Idx → EReal) _ = (V c main_arg2 : S64x256.Idx → EReal) y
  refine congrArg (V c main_arg2 : S64x256.Idx → EReal) ?_
  funext a
  apply Fin.ext
  match a with
  | ⟨0, _⟩ => show win0_1.index t (0 : Fin 2) * 64 + 1 * (y 0).val = (y 0).val; rw [e0]; omega
  | ⟨1, _⟩ => show win0_1.index t (1 : Fin 2) * 256 + 1 * (y 1).val = (y 1).val; rw [e1]; omega

/-- The first bias vector's block at every tile is the whole vector. -/
theorem blk0_2 (c : Dev nD) (t : Fin cfg0.N) : (iblk0 V c 2 t : FVec Ideal S256 .f32) = (V c main_arg3 : S256.Idx → EReal) := by
  obtain ⟨-, -, -, -, e0, -⟩ := idx0 t
  funext y
  unfold iblk0
  rw [View.read_apply]
  show (V c main_arg3 : S256.Idx → EReal) _ = (V c main_arg3 : S256.Idx → EReal) y
  refine congrArg (V c main_arg3 : S256.Idx → EReal) ?_
  funext a
  apply Fin.ext
  match a with
  | ⟨0, _⟩ => show win0_2.index t (0 : Fin 1) * 256 + 1 * (y 0).val = (y 0).val; rw [e0]; omega

/-- The second weight matrix's block at every tile is the whole matrix. -/
theorem blk0_3 (c : Dev nD) (t : Fin cfg0.N) : (iblk0 V c 3 t : FVec Ideal S256x64 .f32) = (V c main_arg4 : S256x64.Idx → EReal) := by
  obtain ⟨-, -, -, -, -, e0, e1, -⟩ := idx0 t
  funext y
  unfold iblk0
  rw [View.read_apply]
  show (V c main_arg4 : S256x64.Idx → EReal) _ = (V c main_arg4 : S256x64.Idx → EReal) y
  refine congrArg (V c main_arg4 : S256x64.Idx → EReal) ?_
  funext a
  apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- The second bias vector's block at every tile is the whole vector. -/
theorem blk0_4 (c : Dev nD) (t : Fin cfg0.N) : (iblk0 V c 4 t : FVec Ideal S64 .f32) = (V c main_arg5 : S64.Idx → EReal) := by
  obtain ⟨-, -, -, -, -, -, -, e0, -⟩ := idx0 t
  funext y
  unfold iblk0
  rw [View.read_apply]
  show (V c main_arg5 : S64.Idx → EReal) _ = (V c main_arg5 : S64.Idx → EReal) y
  refine congrArg (V c main_arg5 : S64.Idx → EReal) ?_
  funext a
  apply Fin.ext
  match a with
  | ⟨0, _⟩ => show win0_4.index t (0 : Fin 1) * 64 + 1 * (y 0).val = (y 0).val; rw [e0]; omega

/-- The perceptron of the whole entry arrays: what the first region's output ends holding. -/
def hidden (c : Dev nD) : S100000x64.Idx → EReal :=
  mlpRows (V c main_arg0 : S100000x64.Idx → EReal) (V c main_arg2 : S64x256.Idx → EReal) (V c main_arg3 : S256.Idx → EReal)
    (V c main_arg4 : S256x64.Idx → EReal) (V c main_arg5 : S64.Idx → EReal)

/-- What tile `t` of the first region writes back is `hidden` read through the tile's block. -/
theorem flushed0 (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5, out0_mlp, blk0_1 V c t, blk0_2 V c t, blk0_3 V c t, blk0_4 V c t]
  obtain ⟨-, -, -, -, -, -, -, -, e8, e9⟩ := idx0 t
  funext y
  show mlpRows (iblk0 V c 0 t : FVec Ideal S5000x64 .f32) (V c main_arg2 : S64x256.Idx → EReal) (V c main_arg3 : S256.Idx → EReal)
      (V c main_arg4 : S256x64.Idx → EReal) (V c main_arg5 : S64.Idx → EReal) y
    = hidden V c (((cfg0.win 5).blk t).view.emb y)
  unfold hidden
  refine mlp_block (R := 5000) (V c main_arg0 : S100000x64.Idx → EReal) _ _ _ _ (iblk0 V c 0 t : FVec Ideal S5000x64 .f32) t.val
    (fun y' k h0 h1 => blk0_0 V c t y' k h0 h1) y _ ?_ ?_
  · show win0_5.index t (0 : Fin 2) * 5000 + 1 * (y 0).val = 5000 * t.val + (y 0).val; rw [e8]; omega
  · show win0_5.index t (1 : Fin 2) * 64 + 1 * (y 1).val = (y 1).val; rw [e9]; omega

/-- Every row lies in some tile's block. -/
theorem cover0 (c : Dev nD) (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e8, e9⟩ := idx0 t
  refine ⟨t, flush0_5 t, ?_⟩
  show i ∈ ((View.whole main_v0).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e8, ht]; omega
  | ⟨1, _⟩ =>
    show win0_5.index t (1 : Fin 2) * 64 ≤ (i 1).val ∧ (i 1).val < win0_5.index t (1 : Fin 2) * 64 + 64
    rw [e9]; omega

/-- THE FIRST REGION'S OUTPUT ARRAY after its 20 tiles: the perceptron of the whole entry arrays. -/
theorem final0 (c : Dev nD) : (dat0 V c).arrAt 5 cfg0.N = hidden V c :=
  (dat0 V c).arrAt_eq_of_cover 5 (hidden V c) (fun t _ => flushed0 V c t) (cover0 c)

/-! ## The second region's blocks -/

theorem blk1_0 (c : Dev nD) (t : Fin cfg1.N) (y : S5000x64.Idx) (k : S100000x64.Idx)
    (hk0 : (k 0).val = 5000 * t.val + (y 0).val) (hk1 : (k 1).val = (y 1).val) :
    (iblk1 V c 0 t : FVec Ideal S5000x64 .f32) y = (V c main_v0 : S100000x64.Idx → EReal) k := by
  obtain ⟨e0, e1, -⟩ := idx1 t
  unfold iblk1
  rw [View.read_apply]
  show (V c main_v0 : S100000x64.Idx → EReal) _ = (V c main_v0 : S100000x64.Idx → EReal) k
  refine congrArg (V c main_v0 : S100000x64.Idx → EReal) ?_
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

theorem blk1_1 (c : Dev nD) (t : Fin cfg1.N) (y : S5000x64.Idx) (k : S100000x64.Idx)
    (hk0 : (k 0).val = 5000 * t.val + (y 0).val) (hk1 : (k 1).val = (y 1).val) :
    (iblk1 V c 1 t : FVec Ideal S5000x64 .f32) y = (V c main_v53 : S100000x64.Idx → EReal) k := by
  obtain ⟨-, -, e0, e1, -⟩ := idx1 t
  unfold iblk1
  rw [View.read_apply]
  show (V c main_v53 : S100000x64.Idx → EReal) _ = (V c main_v53 : S100000x64.Idx → EReal) k
  refine congrArg (V c main_v53 : S100000x64.Idx → EReal) ?_
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 64 + 1 * (y 1).val = (k 1).val; rw [e1, hk1]; omega

/-- The mixing of the two whole entry arrays: what the second region's output ends holding. -/
def mixed (c : Dev nD) : S100000x64.Idx → EReal :=
  mix (V c main_v0 : S100000x64.Idx → EReal) (V c main_v53 : S100000x64.Idx → EReal)

theorem flushed1 (c : Dev nD) (t : Fin cfg1.N) :
    (dat1 V c).flushed 2 t = ((cfg1.win 2).blk t).view.read (Elt Ideal) (mixed V c) := by
  show (cfg1.win 2).cut (grid1.coords t) ((dat1 V c).after 2 t) = _
  rw [after1_2, out1_mix]
  obtain ⟨-, -, -, -, e4, e5⟩ := idx1 t
  funext y
  show mix (iblk1 V c 0 t : FVec Ideal S5000x64 .f32) (iblk1 V c 1 t : FVec Ideal S5000x64 .f32) y
    = mixed V c (((cfg1.win 2).blk t).view.emb y)
  unfold mixed
  have h0 : ((((cfg1.win 2).blk t).view.emb y) 0).val = 5000 * t.val + (y 0).val := by
    show win1_2.index t (0 : Fin 2) * 5000 + 1 * (y 0).val = 5000 * t.val + (y 0).val; rw [e4]; omega
  have h1 : ((((cfg1.win 2).blk t).view.emb y) 1).val = (y 1).val := by
    show win1_2.index t (1 : Fin 2) * 64 + 1 * (y 1).val = (y 1).val; rw [e5]; omega
  exact mix_block _ _ _ _ y _ (blk1_0 V c t y _ h0 h1) (blk1_1 V c t y _ h0 h1)

theorem cover1 (c : Dev nD) (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx1 t
  refine ⟨t, flush1_2 t, ?_⟩
  show i ∈ ((View.whole main_v54).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- THE SECOND REGION'S OUTPUT ARRAY after its 20 tiles: the mixing of its two whole entry arrays. -/
theorem final1 (c : Dev nD) : (dat1 V c).arrAt 2 cfg1.N = mixed V c :=
  (dat1 V c).arrAt_eq_of_cover 2 (mixed V c) (fun t _ => flushed1 V c t) (cover1 c)

end Cert.KernelIdeal.Blocks

end
-- ==== Proof.KernelHost.lean ====
/-
  What the host operations between the two regions leave for the second region to read.

  Between the perceptron's region and the mixing region the program runs three stretches of host operations: they
  compute the graph propagation of the perceptron's output along the edge list and touch neither that output nor any
  argument. So, with `W1` the buffer contents when the first region is left and `W4` those when the second is entered:
  the perceptron's output buffer holds at `W4` what it held at `W1`, and the propagation's result buffer holds
  `Cert.Graph.propagate` of what the perceptron's output buffer and the edge-list argument held at `W1` — the
  operations' composed term, read operation for operation.
-/
import proofs.«127530_j44083544326599_1_alg».proof.Proof.Gen.KernelIdeal.Frame
import proofs.«127530_j44083544326599_1_alg».proof.Proof.Propagate
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen Cert.Graph

variable {F : FTy → Type} [FloatOps F]
variable (m : (ℓ : Loc nD τ sig) → Buf (Elt F) ℓ) (ρ : Dev nD → PrngReg)

/-- The host stretches leave the perceptron's output buffer as the first region left it. -/
theorem kept_hidden (c : Dev nD) :
    W4 m ρ c (Proc.devRef .tc main_v0) = W1 m ρ c (Proc.devRef .tc main_v0) := by
  show StableHlo.after hostOps1_2 (StableHlo.after hostOps1_1 (StableHlo.after hostOps1 (W1 m ρ c))) (Proc.devRef .tc main_v0) = _
  after_results_simp

set_option maxHeartbeats 4000000 in
/-- The host stretches leave, in the buffer the second region reads, the propagation of the perceptron's output. -/
theorem propagated (c : Dev nD) :
    W4 m ρ c (Proc.devRef .tc main_v53)
      = propagate (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v53) = _
  after_results_simp
  rfl

end Cert.KernelIdeal.HostStretch

end
-- ==== Proof.KernelRun.lean ====
/-
  The kernel program's run with its RESULT kept: from any memory with zero counters, every weakly fair execution of
  @main on the TensorCores terminates without a fault, and in every final state the result buffer holds what the last
  segment boundary's contents say it holds (`W5`: the second region's output array after its write-backs), while the
  six argument arrays are as launched.

  The program is five segments — the perceptron's region, three stretches of host operations, the mixing region — and
  the boundary contents are a fold through them from the launch memory. The statement differs from the frame claim
  only in what is read off the last boundary: every unscoped buffer ends at the fold's last valuation, and here the
  result buffer is read there too, not only the arguments.
-/
import proofs.«127530_j44083544326599_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.KernelValue.lean ====
/-
  The kernel program's result as one function of the launch memory.

  Reading the segment boundaries backwards: the result buffer ends holding the second region's output array, which is
  the mixing `c₀ · h + c₁ · z` of the two arrays that region is entered with; `h` is still what the first region left
  in its output — the perceptron of the launched features, weights and biases, because nothing before that region
  writes an argument — and `z` is the graph propagation of `h` along the launched edge list. So the result is
  `mix H (propagate H e)` with `H = mlpRows x W₁ b₁ W₂ b₂` of the launch contents.
-/
import proofs.«127530_j44083544326599_1_alg».proof.Proof.KernelBlocks
import proofs.«127530_j44083544326599_1_alg».proof.Proof.KernelHost
import proofs.«127530_j44083544326599_1_alg».proof.Proof.KernelRun

set_option maxRecDepth 16384

noncomputable section

namespace Cert.KernelIdeal.Result

open Idealize.ShloMosaic Idealize.ShloMosaic.TcCoe Idealize.SL.Sem
open Cert.KernelIdeal Cert.KernelIdeal.Gen Cert.KernelIdeal.Blocks Cert.KernelIdeal.HostStretch Cert.Mlp Cert.Graph

variable (m : (ℓ : Loc nD τ sig) → Buf (Elt Ideal) ℓ) (ρ : Dev nD → PrngReg)

/-- The perceptron of the launched arguments. -/
def hiddenOf (c : Dev nD) : S100000x64.Idx → EReal :=
  mlpRows ((m ((c.tc : Thread nD τ).loc main_arg0)) : S100000x64.Idx → EReal) ((m ((c.tc : Thread nD τ).loc main_arg2)) : S64x256.Idx → EReal)
    ((m ((c.tc : Thread nD τ).loc main_arg3)) : S256.Idx → EReal) ((m ((c.tc : Thread nD τ).loc main_arg4)) : S256x64.Idx → EReal) ((m ((c.tc : Thread nD τ).loc main_arg5)) : S64.Idx → EReal)

/-- The kernel's result: the mixing of the perceptron's output with its propagation along the launched edges. -/
def result (c : Dev nD) : S100000x64.Idx → EReal :=
  mix (hiddenOf m c) (propagate (F := Ideal) (hiddenOf m c) (m ((c.tc : Thread nD τ).loc main_arg1)))

/-- When the first region is left its output buffer holds the perceptron of the launched arguments. -/
theorem hidden_at_exit (c : Dev nD) : (W1 m ρ c (Proc.devRef .tc main_v0) : S100000x64.Idx → EReal) = hiddenOf m c :=
  (W1_arr m ρ c 5).trans (final0 (V0 m ρ) c)

/-- The first region does not touch the edge list. -/
theorem edges_at_exit (c : Dev nD) : W1 m ρ c (Proc.devRef .tc main_arg1) = (m ((c.tc : Thread nD τ).loc main_arg1)) :=
  W1_of_ne m ρ c main_arg1 (by decide)

/-- The last boundary's contents of the result buffer. -/
theorem last_boundary (c : Dev nD) : (W5 m ρ c (Proc.devRef .tc main_v54) : S100000x64.Idx → EReal) = result m c := by
  refine ((W5_arr m ρ c 2).trans (final1 (V4 m ρ) c)).trans ?_
  show mix (W4 m ρ c (Proc.devRef .tc main_v0) : S100000x64.Idx → EReal) (W4 m ρ c (Proc.devRef .tc main_v53) : S100000x64.Idx → EReal) = _
  rw [kept_hidden m ρ c, propagated m ρ c, edges_at_exit m ρ c, hidden_at_exit m ρ c]
  rfl

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v54) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_boundary m ρ c), (h c).2⟩) (Cert.KernelIdeal.Run.run m ρ)

end Cert.KernelIdeal.Result

end
-- ==== Proof.lean ====
/- The certificate of the claim in Defs.lean: a two-layer perceptron, two rounds of normalised graph propagation and a
   final mixing, computed by a tiled kernel program and by a whole-array reference, give equal results over the
   extended reals.

   The kernel program is two tiled regions with host operations between them. The first region computes, tile of 5000
   rows by tile, `H = max(x·W₁ + b₁, 0)·W₂ + b₂` (its operands re-formatted to a shorter float first, which is the
   identity on an extended real; each product into a zero accumulator); the host operations compute the propagation
   `P = A(A H)`, where `A` sends an array to its rows gathered at the edges' sources, scaled by
   `deg[src]^(-1/2) · deg[dst]^(-1/2)` and scatter-added at the targets; the second region computes `c₀·H + c₁·P` tile
   by tile. The reference computes the same three things on whole arrays. The two agree entry by entry with no law of
   arithmetic beyond "a product into a zero accumulator and a `dot_general` are the same finite sum": a row's image under
   the perceptron depends on that row only, the tiles cover all rows, the propagation is the same operations applied to
   equal arrays, and the mixing is entry by entry. The precondition (finite inputs) is not needed and is never opened.

   The three frames are the programs' runs with the results dropped; the kernel's sanctioned idealization rewrote no
   operation, so `preserves` is `True`. -/
import proofs.«127530_j44083544326599_1_alg».proof.Defs
import proofs.«127530_j44083544326599_1_alg».proof.Proof.Gen.Kernel
import proofs.«127530_j44083544326599_1_alg».proof.Proof.Gen.Kernel.Skeleton
import proofs.«127530_j44083544326599_1_alg».proof.Proof.Gen.Kernel.Launch
import proofs.«127530_j44083544326599_1_alg».proof.Proof.Gen.Kernel.Points
import proofs.«127530_j44083544326599_1_alg».proof.Proof.Gen.Kernel.Frame
import proofs.«127530_j44083544326599_1_alg».proof.Proof.Gen.KernelIdeal
import proofs.«127530_j44083544326599_1_alg».proof.Proof.Gen.KernelIdeal.Skeleton
import proofs.«127530_j44083544326599_1_alg».proof.Proof.Gen.KernelIdeal.Launch
import proofs.«127530_j44083544326599_1_alg».proof.Proof.Gen.KernelIdeal.Points
import proofs.«127530_j44083544326599_1_alg».proof.Proof.Gen.KernelIdeal.Frame
import proofs.«127530_j44083544326599_1_alg».proof.Proof.Gen.ReferenceIdeal
import proofs.«127530_j44083544326599_1_alg».proof.Proof.Gen.Pre_finite_inputs
import proofs.«127530_j44083544326599_1_alg».proof.Proof.RefRun
import proofs.«127530_j44083544326599_1_alg».proof.Proof.RefValue
import proofs.«127530_j44083544326599_1_alg».proof.Proof.RefResult
import proofs.«127530_j44083544326599_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both programs end with `mix H (propagate H e)`, `H` the perceptron of the arguments, from memories that agree on
    the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5⟩ := hagree c
  rw [Cert.ReferenceIdeal.RefValue.result_eq, Cert.ReferenceIdeal.RefValue.hostHidden_eq, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
